-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel

variable [Facts]

def fn {F : FTy → Type} [FloatOps F] (main_arg0 : FVec F S32x8192x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  main_v3
-- ==== Kernel.lean ====
abbrev S32x8192x128 : Shape := ⟨3, ![32, 8192, 128]⟩
abbrev S32x1x128 : Shape := ⟨3, ![32, 1, 128]⟩
abbrev S1x8192x128 : Shape := ⟨3, ![1, 8192, 128]⟩
abbrev S1x1x128 : Shape := ⟨3, ![1, 1, 128]⟩
abbrev S1x128 : Shape := ⟨2, ![1, 128]⟩
abbrev S_ : Shape := ⟨0, ![]⟩

abbrev nBuf : Space → Nat
  | .hbm => 18
  | .vmem => 6
  | .smem => 0
  | _ => 0

abbrev bufTy : (tb : Table) → Fin (tcTables nBuf tb) → BufTy
  | .hbm, ⟨0, _⟩ => ⟨S32x8192x128, .f32⟩
  | .hbm, ⟨1, _⟩ => ⟨S32x1x128, .f32⟩
  | .hbm, ⟨2, _⟩ => ⟨S32x1x128, .f32⟩
  | .hbm, ⟨3, _⟩ => ⟨S_, .f32⟩
  | .hbm, ⟨4, _⟩ => ⟨S_, .f32⟩
  | .hbm, ⟨5, _⟩ => ⟨S32x1x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x8192x128, .f32⟩
  | .local _ .vmem, ⟨1, _⟩ => ⟨S1x8192x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  reduces_S1x8192x128_S1x128 : S1x8192x128.Reduces [1] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S32x1x128_S_d0_1_2 : S32x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S32x8192x128.size a
  hwx0_0 : ∀ i : grid0.Coords, EltTy.bits .f32 = 32 ∨ (Rect.block (s := S32x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S32x1x128.size a
  hwx0_1 : ∀ i : grid0.Coords, EltTy.bits .f32 = 32 ∨ (Rect.block (s := S32x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S_ : Shape := ⟨0, ![]⟩
abbrev S32x128 : Shape := ⟨2, ![32, 128]⟩

abbrev nBuf : Space → Nat
  | .hbm => 19
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x8192x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S_, .f32⟩
  | .hbm, ⟨8, _⟩ => ⟨S32x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_cst_5 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S32x8192x128_S_d0_1_2 : S32x8192x128.ReducesTo [0, 1, 2] S_
  h_S_ : 0 < S_.numel
  reducesTo_S32x8192x128_S32x128_d1 : S32x8192x128.ReducesTo [1] S32x128
  reducesTo_S32x128_S_d0_1 : S32x128.ReducesTo [0, 1] S_

variable [Facts₀]

class Facts : Prop extends Facts₀ where

variable [Facts]
-- ==== Proof.Payload.lean ====
/-
  What the kernel body stores, read at an index.  The body loads one batch's block x0[0, n, d] (a [1, 8192, 128] block)
  and stores two [1, 1, 128] blocks: the sum over the points n of x0[0, n, d], and the sum over n of x0[0, n, d]².
  Each is a lane-wise sum over the middle axis (a sum over that axis's coordinates, at the exact instance) followed by
  a shape cast that adds a leading unit axis (which reads the same value at the trailing coordinates).
-/
import proofs.«174043_j89867895702076_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- An index of a [1, 1, 128] block is (0, 0, d). -/
theorem blockIdx_eq (y : S1x1x128.Idx) (d : Fin 128) (hy : (y 2).val = d.val) : y = ix3 0 0 d := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => exact hy

/-- The index the lane-wise sum reads at: the kept coordinates (0, d) with the point n inserted in the middle. -/
theorem lift_eq (n : Fin 8192) (d : Fin 128) :
    Gen.reduces_S1x8192x128_S1x128.lift (fun a => (ix3 (0 : Fin 1) (0 : Fin 1) d : S1x1x128.Idx) a.succ) n = ix3 0 n d := by
  funext a; apply Fin.ext
  match a with
  | ⟨0, _⟩ => rfl
  | ⟨1, _⟩ => rfl
  | ⟨2, _⟩ => rfl

/-- The first store's value at (0, 0, d): the sum over the points of the block's coordinate d. -/
theorem pay1_apply (x0 : FVec Ideal S1x8192x128 .f32) (d : Fin 128) :
    k0_pay1 (F := Ideal) x0 (ix3 0 0 d) = ∑ n : Fin 8192, x0 (ix3 0 n d) := by
  unfold k0_pay1
  dsimp only
  refine (shapeCast_addUnit_apply ![1, 128] _ _ (ix3 0 0 d)).trans ?_
  refine (Ideal.multiReduction_add_single x0 0x00000000#32 Gen.reduces_S1x8192x128_S1x128 (.inl rfl) rfl _).trans ?_
  exact Finset.sum_congr rfl fun n _ => congrArg x0 (lift_eq n d)

/-- The second store's value at (0, 0, d): the sum over the points of the square of the block's coordinate d. -/
theorem pay2_apply (x0 : FVec Ideal S1x8192x128 .f32) (d : Fin 128) :
    k0_pay2 (F := Ideal) x0 (ix3 0 0 d) = ∑ n : Fin 8192, x0 (ix3 0 n d) * x0 (ix3 0 n d) := by
  unfold k0_pay2
  dsimp only
  refine (shapeCast_addUnit_apply ![1, 128] _ _ (ix3 0 0 d)).trans ?_
  refine (Ideal.multiReduction_add_single (mulf x0 x0) 0x00000000#32 Gen.reduces_S1x8192x128_S1x128 (.inl rfl) rfl _).trans ?_
  refine Finset.sum_congr rfl fun n _ => ?_
  rw [lift_eq n d]
  rfl

end Cert.KernelIdeal.Payload

end
-- ==== Proof.LibSumIdx3.lean ====
/-
  A sum over a rank-3 index set, in any commutative monoid, is the iterated sum over its three coordinates
  (the rank-3 companion of the library's rank-2 `sum_idx2`), and with a middle axis of extent one the middle
  sum disappears.
-/
import Idealize.ShloMosaic.Lib.ValueIdx

noncomputable section

open scoped BigOperators

namespace Cert.SumIdx3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a middle axis of extent one (a kept, "keepdims" axis) the sum runs over the outer and inner coordinates only. -/
theorem sum_idx3_unit {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  rw [Fin.sum_univ_one]

end Cert.SumIdx3

end
-- ==== Proof.Spec.lean ====
/-
  The loss both programs compute, as one function of the point array x[b, n, d]
  (32 batches, 8192 points each, 128 coordinates).

  For a batch b and a coordinate d write  s(b,d) = Σ_n x[b,n,d]  and  q(b,d) = Σ_n x[b,n,d]².  The loss is
      exp( c · ( (16384 · Σ_{b,d} q(b,d)  −  2 · Σ_{b,d} s(b,d)²) / 2²⁵ ) ),
  the four constants kept as the binary words both programs print (so none is ever evaluated).

  The two programs differ only in how the sums are arranged:
  the kernel produces s and q per batch as arrays with a kept middle axis of extent one, [32, 1, 128], and the host then
  sums q, and the squares of s, over that array; the reference sums x² over the whole [32, 8192, 128] array at once and
  squares and sums s as a [32, 128] array.  The laws below say that each arrangement is the double sum over (b, d):
  a sum over a rank-3 or rank-2 index set is the iterated sum over its coordinates, a middle axis of extent one
  contributes nothing, and the two inner sums of the whole-array sum may be exchanged.  Sums in the extended reals
  form a commutative monoid, so none of this needs the entries to be finite.
-/
import Idealize.ShloMosaic.Lib.ValueIdx
import Idealize.ShloMosaic.PureOps.Ideal.Laws
import proofs.«174043_j89867895702076_2_alg».proof.Proof.LibSumIdx3

noncomputable section

open scoped BigOperators

namespace Cert.Spread

open Idealize.ShloMosaic Idealize.ShloMosaic.ValueIdx Cert.SumIdx3

/-- The point array's index set: batch, point, coordinate. -/
abbrev Pts : Shape := ⟨3, ![32, 8192, 128]⟩
/-- The per-batch column sums' index set, the summed axis kept with extent one. -/
abbrev Cols : Shape := ⟨3, ![32, 1, 128]⟩
/-- The same without the kept axis. -/
abbrev Flat : Shape := ⟨2, ![32, 128]⟩

/-- s(b,d): the sum over the points of batch b of coordinate d. -/
def colSum (x : Pts.Idx → EReal) (b : Fin 32) (d : Fin 128) : EReal := ∑ n : Fin 8192, x (ix3 b n d)
/-- q(b,d): the sum over the points of batch b of the square of coordinate d. -/
def colSq (x : Pts.Idx → EReal) (b : Fin 32) (d : Fin 128) : EReal := ∑ n : Fin 8192, x (ix3 b n d) * x (ix3 b n d)

/-- s as the [32, 1, 128] array the kernel writes. -/
def colSumK (x : Pts.Idx → EReal) : Cols.Idx → EReal := fun j => colSum x (j 0) (j 2)
/-- q as the [32, 1, 128] array the kernel writes. -/
def colSqK (x : Pts.Idx → EReal) : Cols.Idx → EReal := fun j => colSq x (j 0) (j 2)

/-- Σ_{b,d} q(b,d): the sum of every squared entry. -/
def sumSq (x : Pts.Idx → EReal) : EReal := ∑ b : Fin 32, ∑ d : Fin 128, colSq x b d
/-- Σ_{b,d} s(b,d)². -/
def sqSum (x : Pts.Idx → EReal) : EReal := ∑ b : Fin 32, ∑ d : Fin 128, colSum x b d * colSum x b d

/-- The scalar tail both programs apply to the two sums. -/
def lossOf (A B : EReal) : EReal :=
  Ideal.exp (Ideal.ofBits .f32 0xB089705F#32 *
    Ideal.div (Ideal.ofBits .f32 0x46800000#32 * A - Ideal.ofBits .f32 0x40000000#32 * B) (Ideal.ofBits .f32 0x4C000000#32))

/-- The loss, as the rank-0 array both programs return. -/
def loss (x : Pts.Idx → EReal) : (⟨0, ![]⟩ : Shape).Idx → EReal := fun _ => lossOf (sumSq x) (sqSum x)

/-- Summing the kernel's q array over its [32, 1, 128] index set is the double sum over (b, d). -/
theorem sum_colSqK (x : Pts.Idx → EReal) : ∑ j : Cols.Idx, colSqK x j = sumSq x :=
  sum_idx3_unit (colSqK x)

/-- Summing the squares of the kernel's s array likewise. -/
theorem sum_colSumK_sq (x : Pts.Idx → EReal) : ∑ j : Cols.Idx, colSumK x j * colSumK x j = sqSum x :=
  sum_idx3_unit fun j => colSumK x j * colSumK x j

/-- The sum of x² over the whole array is the same double sum: split into coordinates, exchange the point and the
    coordinate sums. -/
theorem sum_sq_all (x : Pts.Idx → EReal) : ∑ i : Pts.Idx, x i * x i = sumSq x := by
  rw [sum_idx3]
  unfold sumSq colSq
  refine Finset.sum_congr rfl fun b _ => ?_
  rw [Finset.sum_comm]

/-- A [32, 128] array whose (b, d) entry is s(b,d): the sum of its squares is Σ_{b,d} s(b,d)². -/
theorem sum_flat_sq (x : Pts.Idx → EReal) (g : Flat.Idx → EReal) (hg : ∀ b d, g (ix2 b d) = colSum x b d) :
    ∑ p : Flat.Idx, g p * g p = sqSum x := by
  rw [sum_idx2]
  unfold sqSum
  simp only [hg]

end Cert.Spread

end
-- ==== Proof.Blocks.lean ====
/-
  From blocks to arrays.  Grid point t of the kernel handles batch t: it reads the [1, 8192, 128] block of the point
  array at block index (t, 0, 0) and writes the [1, 1, 128] blocks of the two output arrays at block index (t, 0, 0).
  So the input block's entry (0, n, d) is x[t, n, d], what the point writes back is the block at batch t of the
  column-sum array s (resp. of the column-sum-of-squares array q), and since every batch is some point's, the two
  output arrays end as s and q whole.
-/
import proofs.«174043_j89867895702076_2_alg».proof.Proof.Gen.KernelIdeal.Frame
import proofs.«174043_j89867895702076_2_alg».proof.Proof.Payload
import proofs.«174043_j89867895702076_2_alg».proof.Proof.Spec
import Idealize.ShloMosaic.Lib.Pipeline.Value

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.Spread

variable (m : (ℓ : Loc nD τ sig) → Buf (Elt Ideal) ℓ)

theorem hz : (![0, 0, 0] : Fin 3 → Nat) = fun _ => 0 := funext fun a => by fin_cases a <;> rfl

/-- The three index maps, decided over the grid: point t is at block (t, 0, 0) of each array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch a grid point handles. -/
def batchOf (t : Fin cfg0.N) : Fin 32 := ⟨t.val, lt_of_lt_of_eq t.isLt (N_0 : cfg0.N = 32)⟩

/-- The input block at point t, at (0, n, d), is the point array at (t, n, d). -/
theorem iblk_apply (c : Dev nD) (t : Fin cfg0.N) (n : Fin 8192) (d : Fin 128) :
    (iblk m c 0 t : Vec Ideal S1x8192x128 .f32) (ix3 0 n d) = (V m c main_arg0 : S32x8192x128.Idx → EReal) (ix3 (batchOf t) n d) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t 0 * 1 + 1 * 0 = t.val; omega
  | ⟨1, _⟩ => show win0_0.index t 1 * 8192 + 1 * n.val = n.val; omega
  | ⟨2, _⟩ => show win0_0.index t 2 * 128 + 1 * d.val = d.val; omega

/-- A block holding batch b of x: the first store's value at a block index with last coordinate d is s(b,d), which is the
    column-sum array at any index (b, ·, d). -/
theorem pay1_block (x0 : FVec Ideal S1x8192x128 .f32) (X : Pts.Idx → EReal) (b : Fin 32)
    (hx : ∀ n d, x0 (ix3 0 n d) = X (ix3 b n d)) (y : S1x1x128.Idx) (i : Cols.Idx) (d : Fin 128)
    (hy : (y 2).val = d.val) (hi0 : (i 0).val = b.val) (hi2 : (i 2).val = d.val) :
    k0_pay1 (F := Ideal) x0 y = colSumK X i := by
  have e0 : (i 0 : Fin 32) = b := Fin.ext hi0
  have e2 : (i 2 : Fin 128) = d := Fin.ext hi2
  rw [blockIdx_eq y d hy, pay1_apply]
  show _ = colSum X (i 0) (i 2)
  rw [e0, e2]
  exact Finset.sum_congr rfl fun n _ => hx n d

/-- The same for the second store and q. -/
theorem pay2_block (x0 : FVec Ideal S1x8192x128 .f32) (X : Pts.Idx → EReal) (b : Fin 32)
    (hx : ∀ n d, x0 (ix3 0 n d) = X (ix3 b n d)) (y : S1x1x128.Idx) (i : Cols.Idx) (d : Fin 128)
    (hy : (y 2).val = d.val) (hi0 : (i 0).val = b.val) (hi2 : (i 2).val = d.val) :
    k0_pay2 (F := Ideal) x0 y = colSqK X i := by
  have e0 : (i 0 : Fin 32) = b := Fin.ext hi0
  have e2 : (i 2 : Fin 128) = d := Fin.ext hi2
  rw [blockIdx_eq y d hy, pay2_apply]
  show _ = colSq X (i 0) (i 2)
  rw [e0, e2]
  exact Finset.sum_congr rfl fun n _ => by rw [hx n d]

/-- What point t writes back to the first output is block t of the column-sum array of x. -/
theorem flushed1_eq (c : Dev nD) (t : Fin cfg0.N) :
    (dats m 0 c).flushed 1 t = ((cfg0.win 1).blk t).view.read (Elt Ideal) (colSumK (V m c main_arg0)) := by
  show (cfg0.win 1).cut (grid0.coords t) ((dats m 0 c).after 1 t) = _
  rw [after0_1]
  unfold out0_1
  rw [View.canon_unit_zero hz]
  simp only [View.ld_unit_zero (S := S1x8192x128) hz]
  obtain ⟨-, -, -, e0, e1, e2, -⟩ := idx_facts t
  funext j
  rw [View.read_apply]
  have hj0 : (j 0).val < 1 := (j 0).isLt
  refine pay1_block (iblk m c 0 t) (V m c main_arg0) (batchOf t) (fun n d => iblk_apply m c t n d) _ _
    ⟨(j 2).val, (j 2).isLt⟩ rfl ?_ ?_
  · show win0_1.index t 0 * 1 + 1 * (j 0).val = t.val; omega
  · show win0_1.index t 2 * 128 + 1 * (j 2).val = (j 2).val; omega

/-- What point t writes back to the second output is block t of the column-sum-of-squares array of x. -/
theorem flushed2_eq (c : Dev nD) (t : Fin cfg0.N) :
    (dats m 0 c).flushed 2 t = ((cfg0.win 2).blk t).view.read (Elt Ideal) (colSqK (V m c main_arg0)) := by
  show (cfg0.win 2).cut (grid0.coords t) ((dats m 0 c).after 2 t) = _
  rw [after0_2]
  unfold out0_2
  rw [View.canon_unit_zero hz]
  simp only [View.ld_unit_zero (S := S1x8192x128) hz]
  obtain ⟨-, -, -, -, -, -, e0, e1, e2⟩ := idx_facts t
  funext j
  rw [View.read_apply]
  have hj0 : (j 0).val < 1 := (j 0).isLt
  refine pay2_block (iblk m c 0 t) (V m c main_arg0) (batchOf t) (fun n d => iblk_apply m c t n d) _ _
    ⟨(j 2).val, (j 2).isLt⟩ rfl ?_ ?_
  · show win0_2.index t 0 * 1 + 1 * (j 0).val = t.val; omega
  · show win0_2.index t 2 * 128 + 1 * (j 2).val = (j 2).val; omega

/-- An index of the first output array is in point t's block iff each coordinate is in the block's range. -/
theorem mem_blk1 (t : Fin cfg0.N) (i : S32x1x128.Idx) :
    i ∈ ((cfg0.win 1).blk t).view.set ↔ ∀ a : Fin 3, win0_1.index t a * S1x1x128.size a ≤ (i a).val ∧ (i a).val < win0_1.index t a * S1x1x128.size a + S1x1x128.size a := by
  show i ∈ ((View.whole main_v0_0).slice (win0_1.rect t)).set ↔ _
  rw [View.set_slice_whole, Rect.mem_set_unit]
  exact Iff.rfl

theorem mem_blk2 (t : Fin cfg0.N) (i : S32x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_1).slice (win0_2.rect t)).set ↔ _
  rw [View.set_slice_whole, Rect.mem_set_unit]
  exact Iff.rfl

/-- The point whose block holds batch b. -/
def pointOf (b : Fin 32) : Fin cfg0.N := ⟨b.val, lt_of_lt_of_eq b.isLt (N_0 : cfg0.N = 32).symm⟩

/-- Every index (b, 0, d) of the first output array is in the block of the point of batch b. -/
theorem cover1 (i : S32x1x128.Idx) : ∃ t : Fin cfg0.N, (cfg0.win 1).flush t = true ∧ i ∈ ((cfg0.win 1).blk t).view.set := by
  have h0 : (i 0).val < 32 := (i 0).isLt
  have h1 : (i 1).val < 1 := (i 1).isLt
  have h2 : (i 2).val < 128 := (i 2).isLt
  refine ⟨pointOf ⟨(i 0).val, h0⟩, flush0_1 _, ?_⟩
  obtain ⟨-, -, -, e0, e1, e2, -⟩ := idx_facts (pointOf ⟨(i 0).val, h0⟩)
  have et : (pointOf ⟨(i 0).val, h0⟩).val = (i 0).val := rfl
  rw [mem_blk1]
  intro a
  match a with
  | ⟨0, _⟩ => show win0_1.index _ 0 * 1 ≤ (i 0).val ∧ (i 0).val < win0_1.index _ 0 * 1 + 1; omega
  | ⟨1, _⟩ => show win0_1.index _ 1 * 1 ≤ (i 1).val ∧ (i 1).val < win0_1.index _ 1 * 1 + 1; omega
  | ⟨2, _⟩ => show win0_1.index _ 2 * 128 ≤ (i 2).val ∧ (i 2).val < win0_1.index _ 2 * 128 + 128; omega

theorem cover2 (i : S32x1x128.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 128 := (i 2).isLt
  refine ⟨pointOf ⟨(i 0).val, h0⟩, flush0_2 _, ?_⟩
  obtain ⟨-, -, -, -, -, -, e0, e1, e2⟩ := idx_facts (pointOf ⟨(i 0).val, h0⟩)
  have et : (pointOf ⟨(i 0).val, h0⟩).val = (i 0).val := rfl
  rw [mem_blk2]
  intro a
  match a with
  | ⟨0, _⟩ => show win0_2.index _ 0 * 1 ≤ (i 0).val ∧ (i 0).val < win0_2.index _ 0 * 1 + 1; omega
  | ⟨1, _⟩ => show win0_2.index _ 1 * 1 ≤ (i 1).val ∧ (i 1).val < win0_2.index _ 1 * 1 + 1; omega
  | ⟨2, _⟩ => show win0_2.index _ 2 * 128 ≤ (i 2).val ∧ (i 2).val < win0_2.index _ 2 * 128 + 128; omega

/-- The first output array after the run is the column-sum array of the point array as the region finds it. -/
theorem final1 (c : Dev nD) : (dats m 0 c).arrAt 1 cfg0.N = colSumK (V m c main_arg0) :=
  (dats m 0 c).arrAt_eq_of_cover 1 (colSumK (V m c main_arg0)) (fun t _ => flushed1_eq m c t) cover1

/-- The second output array after the run is the column-sum-of-squares array. -/
theorem final2 (c : Dev nD) : (dats m 0 c).arrAt 2 cfg0.N = colSqK (V m c main_arg0) :=
  (dats m 0 c).arrAt_eq_of_cover 2 (colSqK (V m c main_arg0)) (fun t _ => flushed2_eq m c t) cover2

end Cert.KernelIdeal.Blocks

end
-- ==== Proof.Tail.lean ====
/-
  The host operations the kernel's program applies after the pallas_call, as one function of the two [32, 1, 128]
  arrays the call returns (the column sums s and the column sums of squares q): sum q, square and sum s, and apply
  the scalar tail.  A host sum over every axis is the zero word plus the sum over every index; the zero word is 0.
  On the arrays s and q of a point array x the result is the loss of x.
-/
import proofs.«174043_j89867895702076_2_alg».proof.Proof.Gen.KernelIdeal
import proofs.«174043_j89867895702076_2_alg».proof.Proof.Spec

noncomputable section

open scoped BigOperators

namespace Cert.KernelIdeal.Tail

open Idealize.ShloMosaic Idealize.ShloMosaic.ValueIdx Cert.KernelIdeal Cert.KernelIdeal.Gen Cert.Spread

/-- The program's host operations after the call, of the call's two result arrays. -/
def tailOf (s q : FVec Ideal S32x1x128 .f32) : FVec Ideal S_ .f32 :=
  Host.exp (F := Ideal) (mulf (constant (F := Ideal) S_ .f32 0xB089705F#32)
    (Host.divf (F := Ideal)
      (subf
        (mulf (constant (F := Ideal) S_ .f32 0x46800000#32)
          (Host.reduceAdd (F := Ideal) q (constant (F := Ideal) S_ .f32 0x00000000#32) Gen.reducesTo_S32x1x128_S_d0_1_2 Gen.h_S_))
        (mulf (constant (F := Ideal) S_ .f32 0x40000000#32)
          (Host.reduceAdd (F := Ideal) (mulf s s) (constant (F := Ideal) S_ .f32 0x00000000#32) Gen.reducesTo_S32x1x128_S_d0_1_2 Gen.h_S_)))
      (constant (F := Ideal) S_ .f32 0x4C000000#32)))

/-- The host's sum of a [32, 1, 128] array over every axis, from the zero word: the sum over every index. -/
theorem hostSum_apply (y : FVec Ideal S32x1x128 .f32) (i : S_.Idx) :
    Host.reduceAdd (F := Ideal) y (constant (F := Ideal) S_ .f32 0x00000000#32) Gen.reducesTo_S32x1x128_S_d0_1_2 Gen.h_S_ i
      = ∑ j : S32x1x128.Idx, y j := by
  simp only [Host.reduceAdd, Ideal.hostReduceAdd_def]
  refine (Ideal.hostReduceAdd_total Gen.reducesTo_S32x1x128_S_d0_1_2 (fun b => b.elim0) y _ i).trans ?_
  show Ideal.ofBits .f32 0x00000000#32 + _ = _
  rw [Ideal.ofBits_zero_f32, zero_add]

/-- On the column sums and the column sums of squares of x, the host operations give the loss of x. -/
theorem tailOf_cols (X : Pts.Idx → EReal) : tailOf (colSumK X) (colSqK X) = loss X := by
  funext i
  show lossOf
      (Host.reduceAdd (F := Ideal) (colSqK X) (constant (F := Ideal) S_ .f32 0x00000000#32) Gen.reducesTo_S32x1x128_S_d0_1_2 Gen.h_S_ i)
      (Host.reduceAdd (F := Ideal) (mulf (colSumK X) (colSumK X)) (constant (F := Ideal) S_ .f32 0x00000000#32) Gen.reducesTo_S32x1x128_S_d0_1_2 Gen.h_S_ i)
    = lossOf (sumSq X) (sqSum X)
  rw [hostSum_apply, hostSum_apply, sum_colSqK X]
  show lossOf (sumSq X) (∑ j : Cols.Idx, colSumK X j * colSumK X j) = _
  rw [sum_colSumK_sq X]

end Cert.KernelIdeal.Tail

end
-- ==== Proof.KernelLoss.lean ====
/-
  The kernel's program, run: after the pallas_call the two output arrays hold the column sums and the column sums of
  squares of the argument, the host operations after the call turn them into the loss of the argument, and the
  argument array is unchanged.
-/
import proofs.«174043_j89867895702076_2_alg».proof.Proof.Blocks
import proofs.«174043_j89867895702076_2_alg».proof.Proof.Tail
import Idealize.ShloMosaic.Lib.StableHlo.Run

noncomputable section

open scoped BigOperators

namespace Cert.KernelIdeal.KernelLoss

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Blocks Cert.KernelIdeal.Tail Cert.Spread

variable (m : (ℓ : Loc nD τ sig) → Buf (Elt Ideal) ℓ) (ρ : Dev nD → PrngReg)

/-- The result buffer is none of the call's arrays. -/
theorem result_rest : main_v9 ∈ Pipeline.restRefs sig spec0 :=
  Pipeline.mem_restRefs_of main_v9 rfl (fun w => by fin_cases w <;> decide)

/-- What the host operations after the call leave in the result buffer: the loss of the argument array. -/
theorem tail_eq (c : Dev nD) :
    Pipeline.afterTail₀ cfgs (dats m) 0 (V0 m) [hostOps1] c main_v9 = loss (m ((c.tc : Thread nD τ).loc main_arg0)) := by
  unfold Pipeline.afterTail₀
  show StableHlo.after hostOps1 _ (Proc.devRef .tc main_v9) = _
  after_results
  have e1 : Pipeline.withArrays (cfgs 0).spec c (V0 m c) (fun w => (dats m 0 c).arrAt w (cfgs 0).N) (Proc.devRef .tc main_v0_0)
      = colSumK (V m c main_arg0) :=
    (Pipeline.withArrays_arr spec0 launch0.win.arr_inj c (V0 m c) (fun w => (dats m 0 c).arrAt w cfg0.N) 1).trans (final1 m c)
  have e2 : Pipeline.withArrays (cfgs 0).spec c (V0 m c) (fun w => (dats m 0 c).arrAt w (cfgs 0).N) (Proc.devRef .tc main_v0_1)
      = colSqK (V m c main_arg0) :=
    (Pipeline.withArrays_arr spec0 launch0.win.arr_inj c (V0 m c) (fun w => (dats m 0 c).arrAt w cfg0.N) 2).trans (final2 m c)
  rw [e1, e2]
  exact tailOf_cols (V m c main_arg0)

/-- The run, read: every weakly fair execution ends with the result buffer at the loss of the argument array, and the
    argument array as it was. -/
theorem run : θ_run defs (onTc (τ := τ) (main (F := Ideal))) ⟨m, fun _ => 0, ρ⟩ fun r => ∀ c : Dev nD,
      r.2.mem ((c.tc : Thread nD τ).loc main_v9) = loss (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v9 result_rest).trans (tail_eq m c),
        ((h c).1 0).trans (((dats m 0 c).arrAt_in 0 rfl _).trans ((A_eq m c 0).trans (V_main_arg0 m c)))⟩)
    (run_main m ρ)

end Cert.KernelIdeal.KernelLoss

end
-- ==== Proof.RefLoss.lean ====
/-
  The reference's result is the loss.  Read one operation at a time, the reference forms Σ x² over the whole
  [32, 8192, 128] array, the per-batch column sums s as a [32, 128] array, Σ s², and applies the scalar tail.
  Each host sum starts from the zero word, which is the extended real 0 and drops out; the whole-array sum of
  squares and the sum of the squared column sums are the double sums over (batch, coordinate) of the specification.
-/
import proofs.«174043_j89867895702076_2_alg».proof.Proof.Gen.ReferenceIdeal.Read
import proofs.«174043_j89867895702076_2_alg».proof.Proof.Spec

noncomputable section

open scoped BigOperators

namespace Cert.ReferenceIdeal.RefLoss

open Idealize.ShloMosaic Idealize.ShloMosaic.ValueIdx Cert.ReferenceIdeal Cert.ReferenceIdeal.Gen Cert.ReferenceIdeal.Read Cert.Spread

/-- The reference's column-sum array at (b, d) is s(b,d). -/
theorem colSum_eq (x : (⟨S32x8192x128, .f32⟩ : BufTy).Contents (Elt Ideal)) (b : Fin 32) (d : Fin 128) :
    val_main_v2 (F := Ideal) x (ix2 b d) = colSum x b d := by
  rw [val_main_v2_apply, val_main_cst_0_apply]
  show Ideal.ofBits .f32 0x00000000#32 + _ = _
  rw [Ideal.ofBits_zero_f32, zero_add]
  unfold colSum
  refine Finset.sum_congr rfl fun n _ => congrArg x ?_
  funext a; apply Fin.ext
  match a with
  | ⟨0, _⟩ => rfl
  | ⟨1, _⟩ => rfl
  | ⟨2, _⟩ => rfl

/-- The reference's result array is the loss of its argument. -/
theorem result_eq (x : (⟨S32x8192x128, .f32⟩ : BufTy).Contents (Elt Ideal)) :
    val_main_v10 (F := Ideal) x = loss x := by
  funext i
  rw [val_main_v10_apply, val_main_v9_apply, val_main_v8_apply, val_main_v7_apply, val_main_v3_apply, val_main_v6_apply,
    val_main_v1_apply, val_main_v5_apply, val_main_cst_5_apply, val_main_cst_4_apply, val_main_cst_3_apply,
    val_main_cst_1_apply, val_main_cst_apply, val_main_cst_2_apply]
  show lossOf (Ideal.ofBits .f32 0x00000000#32 + ∑ j : S32x8192x128.Idx, x j * x j)
      (Ideal.ofBits .f32 0x00000000#32 + ∑ p : S32x128.Idx, val_main_v2 (F := Ideal) x p * val_main_v2 (F := Ideal) x p)
    = lossOf (sumSq x) (sqSum x)
  rw [Ideal.ofBits_zero_f32, zero_add, zero_add, sum_sq_all x, sum_flat_sq x _ (colSum_eq x)]

end Cert.ReferenceIdeal.RefLoss

end
-- ==== Proof.lean ====
/- The proof of `Cert.Claim` (proofs.«174043_j89867895702076_2_alg».proof.Defs).

   The kernel's program and the reference compute one loss of a point array x[b, n, d] (32 batches, 8192 points, 128
   coordinates): with s(b,d) = Σ_n x[b,n,d] and q(b,d) = Σ_n x[b,n,d]²,
       exp( c · ( (16384 · Σ_{b,d} q(b,d) − 2 · Σ_{b,d} s(b,d)²) / 2²⁵ ) )
   with the same four constant words in both programs (Proof/Spec.lean).

   The kernel's pallas_call runs one grid point per batch; point t reads batch t whole and writes block t of two
   [32, 1, 128] arrays, the lane-wise sums over the points of x and of x² (Proof/Payload.lean: the stored values at an
   index; Proof/Blocks.lean: the blocks are those of s and q, and they tile the arrays).  The host operations after the
   call sum q and the squares of s over the [32, 1, 128] index set and apply the scalar tail (Proof/Tail.lean), so the
   program's result is the loss (Proof/KernelLoss.lean).  The reference sums x² over the whole array, forms s as a
   [32, 128] array, sums its squares and applies the same tail (Proof/RefLoss.lean).  The two arrangements of the sums
   agree because a sum over a product index set is the iterated sum over its coordinates, in any order
   (Proof/LibSumIdx3.lean and the laws of Proof/Spec.lean); this holds for all extended reals, so the finiteness of
   the inputs is never used.  The idealization rewrote nothing, so `preserves` is trivial; the three frames are the
   generated frame runs (the reference's its generated run with the result dropped). -/
import proofs.«174043_j89867895702076_2_alg».proof.Defs
import proofs.«174043_j89867895702076_2_alg».proof.Proof.Gen.Kernel
import proofs.«174043_j89867895702076_2_alg».proof.Proof.Gen.Kernel.Skeleton
import proofs.«174043_j89867895702076_2_alg».proof.Proof.Gen.Kernel.Launch
import proofs.«174043_j89867895702076_2_alg».proof.Proof.Gen.Kernel.Points
import proofs.«174043_j89867895702076_2_alg».proof.Proof.Gen.Kernel.Frame
import proofs.«174043_j89867895702076_2_alg».proof.Proof.Gen.KernelIdeal
import proofs.«174043_j89867895702076_2_alg».proof.Proof.Gen.KernelIdeal.Skeleton
import proofs.«174043_j89867895702076_2_alg».proof.Proof.Gen.KernelIdeal.Launch
import proofs.«174043_j89867895702076_2_alg».proof.Proof.Gen.KernelIdeal.Points
import proofs.«174043_j89867895702076_2_alg».proof.Proof.Gen.KernelIdeal.Frame
import proofs.«174043_j89867895702076_2_alg».proof.Proof.Gen.ReferenceIdeal
import proofs.«174043_j89867895702076_2_alg».proof.Proof.Gen.ReferenceIdeal.Run
import proofs.«174043_j89867895702076_2_alg».proof.Proof.Gen.ReferenceIdeal.Read
import proofs.«174043_j89867895702076_2_alg».proof.Proof.Gen.Pre_finite_inputs
import proofs.«174043_j89867895702076_2_alg».proof.Proof.KernelLoss
import proofs.«174043_j89867895702076_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel program runs and leaves its argument as it was. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the loss of the (agreeing) argument arrays in their result buffers. -/
theorem algebraic : Cert.algebraic_KernelIdeal_ReferenceIdeal := by
  intro m ρ m' ρ' _ hagree
  refine ⟨_, Cert.KernelIdeal.KernelLoss.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v10_eq _).trans (Cert.ReferenceIdeal.RefLoss.result_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
